-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000x128 : Shape := ⟨2, ![50000, 128]⟩
abbrev S2000x256 : Shape := ⟨2, ![2000, 256]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 49
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x64, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  bcast_S1x64_S50000x64_0_1 : S1x64.BroadcastsInDim S50000x64 (![0, 1] : Fin 2 → Fin S50000x64.rank)
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S800000x1, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run, with the WHOLE final memory named.

  @main is five segments in a row: a stretch of host operations (the two rows of the edge list cut out and
  flattened), the first row-blocked matrix product, a second stretch (gather by source, scale by the edge weight,
  scatter-add by target, the bias laid out as a row), the second row-blocked product, and a last stretch (the same
  gather / scale / scatter-add, plus the output bias). Each segment starts from the buffer contents the one before
  it left, so the contents at the five boundaries are a fold from the launch memory; the last of them is `W5`.

  The statement below says: every weakly fair execution terminates without a fault, and in the final state every
  buffer that outlives the kernels holds what `W5` says. Both the result array and the unchanged arguments are
  read off that one fact.
-/
import proofs.«166498_j43628277793359_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and each buffer that is not a kernel's
    staging buffer ends at the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the staging cells' own; no core gets anything else
      iintro Hcells; imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- after the last stretch: buffers ∗ (register ∗ owed)  ⊢  (buffers ∗ register) ∗ owed
      dsimp only [Pipeline.Seg.post, hseg, Pipeline.HostSeg.ofOps]
      iintro ⟨Hbufs, Hreg, Howed⟩
      isplitr [Howed]
      · isplitl [Hbufs]
        · iexact Hbufs
        · iexact Hreg
      · iexact Howed⟩)
    (hinit := by
      -- per core, the launch deals the unscoped buffers at the launch memory, the register and an empty debt
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      isplitl [Hreg]
      · iexists _; iexact Hreg
      · iexists ∅; iexact Howed)
    (QY := fun c s => ∀ b ∈ Pipeline.ucRefs τ sig, s.mem (((c : Thread nD τ)).1, b) = W5 m ρ c b)
    (hfin := fun c s' => by
      -- holding every unscoped buffer at `W5` against the final state: the state's memory agrees with `W5` there
      iintro ⟨⟨Hbufs, -⟩, Hstate⟩
      unfold StableHlo.held
      imodintro
      iapply (pointsTo_read_all (Pipeline.ucRefs τ sig) (fun b => (((c : Thread nD τ)).1, b)) (W5 m ρ c) s')
      isplitl [Hbufs] <;> iassumption)
    (hQ := fun s h => h)

end Cert.KernelIdeal.WholeRun

end
-- ==== Proof.Body1.lean ====
/-
  The first kernel's body, read at an index.

  One grid point multiplies a block of 2000 rows of the features (2000 × 256) by the whole first weight matrix
  (256 × 128) into a zero accumulator. Over the extended reals the change of float format is the identity and the
  zero accumulator adds nothing, so entry (r, c) of what the body stores is the plain sum over k of
  X(r, k) · W(k, c).
-/
import proofs.«166498_j43628277793359_1_alg».proof.Proof.Gen.KernelIdeal.Skeleton
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic

/-! The product's operand positions at output entry `j` and contracted position `q`, one coordinate at a time. -/

theorem dot1_l0 (j : S2000x128.Idx) (q : dot_S2000x256_S256x128_S2000x128_1_0_0_1_n_n.contr.Idx) : (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl
theorem dot1_l1 (j : S2000x128.Idx) (q : dot_S2000x256_S256x128_S2000x128_1_0_0_1_n_n.contr.Idx) : (dot_S2000x256_S256x128_S2000x128_1_0_0_1_n_n.lhsIdx j q 1).val = (q ⟨0, by decide⟩).val :=
  dot_S2000x256_S256x128_S2000x128_1_0_0_1_n_n.lhsIdx_val_of_single rfl j q
theorem dot1_r0 (j : S2000x128.Idx) (q : dot_S2000x256_S256x128_S2000x128_1_0_0_1_n_n.contr.Idx) : (dot_S2000x256_S256x128_S2000x128_1_0_0_1_n_n.rhsIdx j q 0).val = (q ⟨0, by decide⟩).val :=
  dot_S2000x256_S256x128_S2000x128_1_0_0_1_n_n.rhsIdx_val_of_single rfl j q
theorem dot1_r1 (j : S2000x128.Idx) (q : dot_S2000x256_S256x128_S2000x128_1_0_0_1_n_n.contr.Idx) : (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- Row `j 0`, column `k` of a 2000 × 256 block: the left factor's position. -/
abbrev lpos1 (j : S2000x128.Idx) (k : Fin 256) : S2000x256.Idx := fun a => match a with
  | ⟨0, _⟩ => ⟨(j 0).val, (j 0).isLt⟩
  | ⟨1, _⟩ => ⟨k.val, k.isLt⟩
/-- Row `k`, column `j 1` of the 256 × 128 matrix: the right factor's position. -/
abbrev rpos1 (j : S2000x128.Idx) (k : Fin 256) : S256x128.Idx := fun a => match a with
  | ⟨0, _⟩ => ⟨k.val, k.isLt⟩
  | ⟨1, _⟩ => ⟨(j 1).val, (j 1).isLt⟩

/-- What the first body stores, at entry `j`: the sum over the 256 contracted positions. -/
theorem pay1_apply (x0 : Vec Ideal S2000x256 .f32) (x1 : Vec Ideal S256x128 .f32) (j : S2000x128.Idx) :
    k0_pay1 (F := Ideal) x0 x1 j = ∑ k : Fin 256, x0 (lpos1 j k) * x1 (rpos1 j k) := by
  unfold k0_pay1
  simp only [matmul]
  rw [Ideal.matmul_constant_zero_apply,
    ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = lpos1 j k :=
    funext fun a => Fin.ext (by
      match a with
      | ⟨0, _⟩ => exact dot1_l0 _ _
      | ⟨1, _⟩ => exact (dot1_l1 _ _).trans hk)
  have er : dot_S2000x256_S256x128_S2000x128_1_0_0_1_n_n.rhsIdx j ((ValueIdx.contrEquiv1 dot_S2000x256_S256x128_S2000x128_1_0_0_1_n_n 256 rfl rfl).symm k) = rpos1 j k :=
    funext fun a => Fin.ext (by
      match a with
      | ⟨0, _⟩ => exact (dot1_r0 _ _).trans hk
      | ⟨1, _⟩ => exact dot1_r1 _ _)
  rw [el, er]
  rfl

end Cert.KernelIdeal.Blocks

end
-- ==== Proof.Region1.lean ====
/-
  The array the first kernel leaves, as one function of the arrays it finds.

  The grid has 25 points; point t reads rows 2000·t … 2000·t + 1999 of the features and the whole first weight
  matrix, and writes rows 2000·t … 2000·t + 1999 of the output. Row r of the output therefore comes from point
  r / 2000, the 25 row blocks tile the 50000 rows, and the output array ends as the full matrix product:
  entry (r, c) is the sum over k of X(r, k) · W(k, c).
-/
import proofs.«166498_j43628277793359_1_alg».proof.Proof.Gen.KernelIdeal.Frame
import proofs.«166498_j43628277793359_1_alg».proof.Proof.Body1
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- The full product of a 50000 × 256 array by a 256 × 128 array, entry by entry. -/
def product1 (X : S50000x256.Idx → Elt Ideal .f32) (W : S256x128.Idx → Elt Ideal .f32) : S50000x128.Idx → Elt Ideal .f32 :=
  fun i => ∑ k : Fin 256, X (ix2 (n0 := 50000) (n1 := 256) (i 0) k) * W (ix2 (n0 := 256) (n1 := 128) k (i 1))

theorem zeros2 : (![0, 0] : Fin 2 → Nat) = fun _ => 0 := funext fun a => by fin_cases a <;> rfl

/-- Where the three windows' blocks sit at point `t`: the features' and the output's block is row block `t`, the
    weight's is the whole matrix. -/
theorem blocks1 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 25 row blocks is some point's output block. -/
theorem rowBlock1 : ∀ q : Fin 25, ∃ t : Fin cfg0.N, win0_2.index t = ![q.val, 0] :=
  (by decide +kernel : ∀ q : Fin 25, ∃ t : Fin grid0.N, win0_2.index t = ![q.val, 0])

variable (V : (c : Dev nD) → (b : Ref sig .tc) → Buf (Elt Ideal) ((c : Thread nD τ).loc b))

/-- What point `t` writes back is its row block of the full product of the arrays as the region finds them. -/
theorem written1 (c : Dev nD) (t : Fin cfg0.N) :
    (dat0 (F := Ideal) V c).flushed 2 t
      = ((cfg0.win 2).blk t).view.read (Elt Ideal) (product1 (V c main_arg0) (V c main_arg3)) := by
  show (cfg0.win 2).cut (grid0.coords t) ((dat0 (F := Ideal) V c).after 2 t) = _
  rw [after0_2]
  unfold out0_2
  rw [View.canon_unit_zero zeros2]
  simp only [View.ld_unit_zero (S := S2000x256) zeros2, View.ld_unit_zero (S := S256x128) zeros2]
  obtain ⟨e0, e1, e2, e3, e4⟩ := blocks1 t
  funext j
  show k0_pay1 (F := Ideal) (iblk0 V c 0 t) (iblk0 V c 1 t) j
    = product1 (V c main_arg0) (V c main_arg3) (((cfg0.win 2).blk t).view.emb j)
  refine (pay1_apply (iblk0 V c 0 t) (iblk0 V c 1 t) j).trans ?_
  unfold product1
  refine Finset.sum_congr rfl fun k _ => ?_
  have hl : ((cfg0.win 0).blk t).view.emb (lpos1 j k) = ix2 (n0 := 50000) (n1 := 256) ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hr : ((cfg0.win 1).blk t).view.emb (rpos1 j k) = ix2 (n0 := 256) (n1 := 128) k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  -- each factor is the array read where the output's block says
  have hX : iblk0 V c 0 t (lpos1 j k)
      = (V c main_arg0 : S50000x256.Idx → Elt Ideal .f32) (ix2 (n0 := 50000) (n1 := 256) ((((cfg0.win 2).blk t).view.emb j) 0) k) := by
    show (V c main_arg0 : S50000x256.Idx → Elt Ideal .f32) (((cfg0.win 0).blk t).view.emb (lpos1 j k)) = _
    rw [hl]
  have hW : iblk0 V c 1 t (rpos1 j k)
      = (V c main_arg3 : S256x128.Idx → Elt Ideal .f32) (ix2 (n0 := 256) (n1 := 128) k ((((cfg0.win 2).blk t).view.emb j) 1)) := by
    show (V c main_arg3 : S256x128.Idx → Elt Ideal .f32) (((cfg0.win 1).blk t).view.emb (rpos1 j k)) = _
    rw [hr]
  exact congrArg₂ (· * ·) hX hW

/-- An index of the output array is in point `t`'s block iff each coordinate is in the block's range. -/
theorem inBlock1 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Every entry of the output array is written: row `r` by the point whose block is `r / 2000`. -/
theorem covered1 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := rowBlock1 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [inBlock1]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the first kernel: the full product of the features and the first weight matrix, as
    the region finds them. -/
theorem array1 (c : Dev nD) :
    (dat0 (F := Ideal) V c).arrAt 2 cfg0.N = product1 (V c main_arg0) (V c main_arg3) :=
  (dat0 (F := Ideal) V c).arrAt_eq_of_cover 2 (product1 (V c main_arg0) (V c main_arg3))
    (fun t _ => written1 V c t) covered1

end Cert.KernelIdeal.Blocks

end
-- ==== Proof.Body2.lean ====
/-
  The second kernel's body, read at an index.

  One grid point takes a block of 2000 rows of the aggregated hidden features (2000 × 128), adds the bias row
  (1 × 128, the same for every row), clamps below at zero, and multiplies by the whole second weight matrix
  (128 × 64) into a zero accumulator. Over the extended reals entry (r, c) of what it stores is the sum over k of
  max(A(r, k) + b(k), 0) · W(k, c).
-/
import proofs.«166498_j43628277793359_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Blocks

open Cert.KernelIdeal Cert.KernelIdeal.Gen Idealize.ShloMosaic Idealize.ShloMosaic.ValueIdx

/-! The product's operand positions at output entry `j` and contracted position `q`, one coordinate at a time. -/

theorem dot2_l0 (j : S2000x64.Idx) (q : dot_S2000x128_S128x64_S2000x64_1_0_0_1_n_n.contr.Idx) : (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem dot2_l1 (j : S2000x64.Idx) (q : dot_S2000x128_S128x64_S2000x64_1_0_0_1_n_n.contr.Idx) : (dot_S2000x128_S128x64_S2000x64_1_0_0_1_n_n.lhsIdx j q 1).val = (q ⟨0, by decide⟩).val :=
  dot_S2000x128_S128x64_S2000x64_1_0_0_1_n_n.lhsIdx_val_of_single rfl j q
theorem dot2_r0 (j : S2000x64.Idx) (q : dot_S2000x128_S128x64_S2000x64_1_0_0_1_n_n.contr.Idx) : (dot_S2000x128_S128x64_S2000x64_1_0_0_1_n_n.rhsIdx j q 0).val = (q ⟨0, by decide⟩).val :=
  dot_S2000x128_S128x64_S2000x64_1_0_0_1_n_n.rhsIdx_val_of_single rfl j q
theorem dot2_r1 (j : S2000x64.Idx) (q : dot_S2000x128_S128x64_S2000x64_1_0_0_1_n_n.contr.Idx) : (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- Row `j 0`, column `k` of a 2000 × 128 block: the left factor's position. -/
abbrev lpos2 (j : S2000x64.Idx) (k : Fin 128) : S2000x128.Idx := ix2 (n0 := 2000) (n1 := 128) (j 0) k
/-- Row `k`, column `j 1` of the 128 × 64 matrix: the right factor's position. -/
abbrev rpos2 (j : S2000x64.Idx) (k : Fin 128) : S128x64.Idx := ix2 (n0 := 128) (n1 := 64) k (j 1)
/-- Column `k` of the one-row bias. -/
abbrev bpos (k : Fin 128) : S1x128.Idx := ix2 (n0 := 1) (n1 := 128) (0 : Fin 1) k

/-- The hidden activation the second body feeds its product, at row `p`, column `k` of the block. -/
theorem hidden_apply (x0 : Vec Ideal S2000x128 .f32) (x1 : Vec Ideal S1x128 .f32) (p : Fin 2000) (k : Fin 128) :
    maximumf (F := Ideal) (addf (shapeCast S2000x128 x0 shapeCasts_S2000x128_S2000x128)
        (broadcastTo S2000x128 (shapeCast S1x128 x1 shapeCasts_S1x128_S1x128) broadcasts_S1x128_S2000x128))
      (broadcast S2000x128 (Scalar.ofBits (F := Ideal) .f32 0x00000000#32)) (ix2 (n0 := 2000) (n1 := 128) p k)
    = max (x0 (ix2 (n0 := 2000) (n1 := 128) p k) + x1 (bpos k)) (Ideal.ofBits .f32 0x00000000#32) := by
  rw [shapeCast_self, shapeCast_self]
  show max (x0 (ix2 (n0 := 2000) (n1 := 128) p k) + broadcastTo S2000x128 x1 broadcasts_S1x128_S2000x128 (ix2 (n0 := 2000) (n1 := 128) p k)) _ = _
  rw [broadcastTo_1b_ab_apply x1 broadcasts_S1x128_S2000x128 p k]
  rfl

/-- What the second body stores, at entry `j`: the sum over the 128 contracted positions. -/
theorem pay2_apply (x0 : Vec Ideal S2000x128 .f32) (x1 : Vec Ideal S1x128 .f32) (x2 : Vec Ideal S128x64 .f32) (j : S2000x64.Idx) :
    k1_pay1 (F := Ideal) x0 x1 x2 j
      = ∑ k : Fin 128, max (x0 (lpos2 j k) + x1 (bpos k)) (Ideal.ofBits .f32 0x00000000#32) * x2 (rpos2 j k) := by
  unfold k1_pay1
  simp only [matmul]
  rw [Ideal.matmul_constant_zero_apply,
    ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lpos2 j k :=
    funext fun a => Fin.ext (by
      match a with
      | ⟨0, _⟩ => exact dot2_l0 _ _
      | ⟨1, _⟩ => exact (dot2_l1 _ _).trans hk)
  have er : dot_S2000x128_S128x64_S2000x64_1_0_0_1_n_n.rhsIdx j ((ValueIdx.contrEquiv1 dot_S2000x128_S128x64_S2000x64_1_0_0_1_n_n 128 rfl rfl).symm k) = rpos2 j k :=
    funext fun a => Fin.ext (by
      match a with
      | ⟨0, _⟩ => exact (dot2_r0 _ _).trans hk
      | ⟨1, _⟩ => exact dot2_r1 _ _)
  rw [el, er]
  exact congrArg (· * x2 (rpos2 j k)) (hidden_apply x0 x1 (j 0) k)

end Cert.KernelIdeal.Blocks

end
-- ==== Proof.Region2.lean ====
/-
  The array the second kernel leaves, as one function of the arrays it finds.

  The grid again has 25 points; point t reads rows 2000·t … 2000·t + 1999 of the aggregated hidden features, the
  one-row bias and the whole second weight matrix, and writes rows 2000·t … 2000·t + 1999 of the output. The 25
  row blocks tile the 50000 rows, so the output array ends with entry (r, c) equal to the sum over k of
  max(A(r, k) + b(k), 0) · W(k, c): bias, clamp at zero and matrix product in one.
-/
import proofs.«166498_j43628277793359_1_alg».proof.Proof.Gen.KernelIdeal.Frame
import proofs.«166498_j43628277793359_1_alg».proof.Proof.Body2
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- Bias, clamp at zero, then the full product by a 128 × 64 array, entry by entry. -/
def product2 (A : S50000x128.Idx → Elt Ideal .f32) (b : S1x128.Idx → Elt Ideal .f32) (W : S128x64.Idx → Elt Ideal .f32) :
    S50000x64.Idx → Elt Ideal .f32 :=
  fun i => ∑ k : Fin 128, max (A (ix2 (n0 := 50000) (n1 := 128) (i 0) k) + b (bpos k)) (Ideal.ofBits .f32 0x00000000#32)
    * W (ix2 (n0 := 128) (n1 := 64) k (i 1))

theorem zeros2' : (![0, 0] : Fin 2 → Nat) = fun _ => 0 := funext fun a => by fin_cases a <;> rfl

/-- Where the four windows' blocks sit at point `t`: the hidden features' and the output's block is row block `t`,
    the bias row and the weight matrix are whole. -/
theorem blocks2 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every one of the 25 row blocks is some point's output block. -/
theorem rowBlock2 : ∀ q : Fin 25, ∃ t : Fin cfg1.N, win1_3.index t = ![q.val, 0] :=
  (by decide +kernel : ∀ q : Fin 25, ∃ t : Fin grid1.N, win1_3.index t = ![q.val, 0])

variable (V : (c : Dev nD) → (b : Ref sig .tc) → Buf (Elt Ideal) ((c : Thread nD τ).loc b))

/-- What point `t` writes back is its row block of `product2` of the arrays as the region finds them. -/
theorem written2 (c : Dev nD) (t : Fin cfg1.N) :
    (dat1 (F := Ideal) V c).flushed 3 t
      = ((cfg1.win 3).blk t).view.read (Elt Ideal) (product2 (V c main_v17) (V c main_v18) (V c main_arg5)) := by
  show (cfg1.win 3).cut (grid1.coords t) ((dat1 (F := Ideal) V c).after 3 t) = _
  rw [after1_3]
  unfold out1_3
  rw [View.canon_unit_zero zeros2']
  simp only [View.ld_unit_zero (S := S2000x128) zeros2', View.ld_unit_zero (S := S1x128) zeros2', View.ld_unit_zero (S := S128x64) zeros2']
  obtain ⟨e0, e1, e2, e3, e4, e5, e6⟩ := blocks2 t
  funext j
  show k1_pay1 (F := Ideal) (iblk1 V c 0 t) (iblk1 V c 1 t) (iblk1 V c 2 t) j
    = product2 (V c main_v17) (V c main_v18) (V c main_arg5) (((cfg1.win 3).blk t).view.emb j)
  refine (pay2_apply (iblk1 V c 0 t) (iblk1 V c 1 t) (iblk1 V c 2 t) j).trans ?_
  unfold product2
  refine Finset.sum_congr rfl fun k _ => ?_
  have hl : ((cfg1.win 0).blk t).view.emb (lpos2 j k) = ix2 (n0 := 50000) (n1 := 128) ((((cfg1.win 3).blk t).view.emb j) 0) k := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  have hb : ((cfg1.win 1).blk t).view.emb (bpos k) = bpos k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hr : ((cfg1.win 2).blk t).view.emb (rpos2 j k) = ix2 (n0 := 128) (n1 := 64) k ((((cfg1.win 3).blk t).view.emb j) 1) := by
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  -- each of the three reads is the array read where the output's block says
  have hA : iblk1 V c 0 t (lpos2 j k)
      = (V c main_v17 : S50000x128.Idx → Elt Ideal .f32) (ix2 (n0 := 50000) (n1 := 128) ((((cfg1.win 3).blk t).view.emb j) 0) k) := by
    show (V c main_v17 : S50000x128.Idx → Elt Ideal .f32) (((cfg1.win 0).blk t).view.emb (lpos2 j k)) = _
    rw [hl]
  have hB : iblk1 V c 1 t (bpos k) = (V c main_v18 : S1x128.Idx → Elt Ideal .f32) (bpos k) := by
    show (V c main_v18 : S1x128.Idx → Elt Ideal .f32) (((cfg1.win 1).blk t).view.emb (bpos k)) = _
    rw [hb]
  have hW : iblk1 V c 2 t (rpos2 j k)
      = (V c main_arg5 : S128x64.Idx → Elt Ideal .f32) (ix2 (n0 := 128) (n1 := 64) k ((((cfg1.win 3).blk t).view.emb j) 1)) := by
    show (V c main_arg5 : S128x64.Idx → Elt Ideal .f32) (((cfg1.win 2).blk t).view.emb (rpos2 j k)) = _
    rw [hr]
  exact congrArg₂ (· * ·) (congrArg (fun z => max z (Ideal.ofBits .f32 0x00000000#32)) (congrArg₂ (· + ·) hA hB)) hW

/-- An index of the output array is in point `t`'s block iff each coordinate is in the block's range. -/
theorem inBlock2 (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v19).slice (win1_3.rect t)).set ↔ _
  rw [View.set_slice_whole, Rect.mem_set_unit]
  exact Iff.rfl

/-- Every entry of the output array is written: row `r` by the point whose block is `r / 2000`. -/
theorem covered2 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := rowBlock2 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [inBlock2]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- The output array after the second kernel: bias, clamp and product of the arrays as the region finds them. -/
theorem array2 (c : Dev nD) :
    (dat1 (F := Ideal) V c).arrAt 3 cfg1.N = product2 (V c main_v17) (V c main_v18) (V c main_arg5) :=
  (dat1 (F := Ideal) V c).arrAt_eq_of_cover 3 (product2 (V c main_v17) (V c main_v18) (V c main_arg5))
    (fun t _ => written2 V c t) covered2

end Cert.KernelIdeal.Blocks

end
-- ==== Proof.KernelValue.lean ====
/-
  What the idealized kernel computes, as one function of its seven arguments.

  Walking the five segments of @main back from the last boundary: the result is the output bias added to the
  second round of message passing; that round is taken of the array the second kernel left, which is bias, clamp
  and product of the first round's result; the first round is taken of the array the first kernel left, which is
  the product of the features and the first weight matrix. The two rows of the edge list, the edge weights and the
  parameters pass through every segment that does not write them, so each is still what the launch memory held.
-/
import proofs.«166498_j43628277793359_1_alg».proof.Proof.Region1
import proofs.«166498_j43628277793359_1_alg».proof.Proof.Region2
import Idealize.ShloMosaic.Lib.StableHlo.Run

set_option maxRecDepth 16384

noncomputable section

namespace Cert.KernelIdeal.Layers

open Cert.KernelIdeal Cert.KernelIdeal.Gen Cert.KernelIdeal.Blocks
open Idealize.ShloMosaic Idealize.ShloMosaic.TcCoe Idealize.SL.Sem Idealize.ShloMosaic.StableHlo

/-- Arrays of 32-bit integers, and of floats read as extended reals, of a given shape. -/
abbrev Ints (s : Shape) := IVec s 32
abbrev Reals (s : Shape) := FVec Ideal s .f32

/-- The edge list's first row (the source node of every edge), as a flat vector. -/
def sourceRow (e : Ints S2x800000) : Ints S800000 :=
  shapeCast S800000 (extractStridedSlice S1x800000 ![0, 0] e slices_S2x800000_S1x800000_0_0) shapeCasts_S1x800000_S800000
/-- The edge list's second row (the target node of every edge), as a flat vector. -/
def targetRow (e : Ints S2x800000) : Ints S800000 :=
  shapeCast S800000 (extractStridedSlice S1x800000 ![1, 0] e slices_S2x800000_S1x800000_1_0) shapeCasts_S1x800000_S800000

/-- One round of message passing on features of width 128: each edge takes its source node's row (a negative
    node id is wrapped once by the node count, as array indexing does), scales it by the edge's weight, and the
    scaled rows are summed into their target nodes, starting from zero. -/
def aggregate128 (h : Reals S50000x128) (s d : Ints S800000) (w : Reals S800000) : Reals S50000x128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (mulf (F := Ideal)
      (broadcastInDim S800000x128 ![0, 1] bcast_S800000x1_S800000x128_0_1
        (broadcastInDim S800000x1 ![0] bcast_S800000_S800000x1_0 w))
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))

/-- One round of message passing on features of width 64: each edge takes its source node's row (a negative
    node id is wrapped once by the node count, as array indexing does), scales it by the edge's weight, and the
    scaled rows are summed into their target nodes, starting from zero. -/
def aggregate64 (h : Reals S50000x64) (s d : Ints S800000) (w : Reals S800000) : Reals S50000x64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (mulf (F := Ideal)
      (broadcastInDim S800000x64 ![0, 1] bcast_S800000x1_S800000x64_0_1
        (broadcastInDim S800000x1 ![0] bcast_S800000_S800000x1_0 w))
      (Host.gather gather_S50000x64_S800000x1_S800000x64_1_0_n_n_0_1_164 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))

/-- The whole forward pass: product with the first weights, one round of message passing, bias / clamp / product
    with the second weights, a second round, the output bias. -/
def forward (x : Reals S50000x256) (e : Ints S2x800000) (w : Reals S800000) (W1 : Reals S256x128) (b1 : Reals S128)
    (W2 : Reals S128x64) (b2 : Reals S64) : Reals S50000x64 :=
  addf (F := Ideal)
    (aggregate64
      (product2 (aggregate128 (product1 x W1) (sourceRow e) (targetRow e) w) (shapeCast S1x128 b1 shapeCasts_S128_S1x128) W2)
      (sourceRow e) (targetRow e) w)
    (broadcastInDim S50000x64 ![0, 1] bcast_S1x64_S50000x64_0_1 (shapeCast S1x64 b2 shapeCasts_S64_S1x64))

variable (m : (ℓ : Loc nD τ sig) → Buf (Elt Ideal) ℓ) (ρ : Dev nD → PrngReg)

/-! ## Buffers no segment in between writes: still at what the launch memory (or the first stretch) gave them -/

theorem at1_v1 (c : Dev nD) : W1 m ρ c (Proc.devRef .tc main_v1) = sourceRow (m ((c : Thread nD τ).loc main_arg1)) := by
  show StableHlo.after hostOps0 (W0 m ρ c) (Proc.devRef .tc main_v1) = _
  after_results <;> rfl
theorem at2_v1 (c : Dev nD) : W2 m ρ c (Proc.devRef .tc main_v1) = sourceRow (m ((c : Thread nD τ).loc main_arg1)) :=
  (W2_of_ne m ρ c main_v1 (by decide)).trans (at1_v1 m ρ c)
theorem at3_v1 (c : Dev nD) : W3 m ρ c (Proc.devRef .tc main_v1) = sourceRow (m ((c : Thread nD τ).loc main_arg1)) :=
  (show StableHlo.after hostOps1 (W2 m ρ c) (Proc.devRef .tc main_v1) = W2 m ρ c (Proc.devRef .tc main_v1) by after_results <;> rfl).trans (at2_v1 m ρ c)
theorem at4_v1 (c : Dev nD) : W4 m ρ c (Proc.devRef .tc main_v1) = sourceRow (m ((c : Thread nD τ).loc main_arg1)) :=
  (W4_of_ne m ρ c main_v1 (by decide)).trans (at3_v1 m ρ c)

theorem at1_v3 (c : Dev nD) : W1 m ρ c (Proc.devRef .tc main_v3) = targetRow (m ((c : Thread nD τ).loc main_arg1)) := by
  show StableHlo.after hostOps0 (W0 m ρ c) (Proc.devRef .tc main_v3) = _
  after_results <;> rfl
theorem at2_v3 (c : Dev nD) : W2 m ρ c (Proc.devRef .tc main_v3) = targetRow (m ((c : Thread nD τ).loc main_arg1)) :=
  (W2_of_ne m ρ c main_v3 (by decide)).trans (at1_v3 m ρ c)
theorem at3_v3 (c : Dev nD) : W3 m ρ c (Proc.devRef .tc main_v3) = targetRow (m ((c : Thread nD τ).loc main_arg1)) :=
  (show StableHlo.after hostOps1 (W2 m ρ c) (Proc.devRef .tc main_v3) = W2 m ρ c (Proc.devRef .tc main_v3) by after_results <;> rfl).trans (at2_v3 m ρ c)
theorem at4_v3 (c : Dev nD) : W4 m ρ c (Proc.devRef .tc main_v3) = targetRow (m ((c : Thread nD τ).loc main_arg1)) :=
  (W4_of_ne m ρ c main_v3 (by decide)).trans (at3_v3 m ρ c)

theorem at1_arg2 (c : Dev nD) : W1 m ρ c (Proc.devRef .tc main_arg2) = (m ((c : Thread nD τ).loc main_arg2)) := by
  show StableHlo.after hostOps0 (W0 m ρ c) (Proc.devRef .tc main_arg2) = _
  after_results <;> rfl
theorem at2_arg2 (c : Dev nD) : W2 m ρ c (Proc.devRef .tc main_arg2) = (m ((c : Thread nD τ).loc main_arg2)) :=
  (W2_of_ne m ρ c main_arg2 (by decide)).trans (at1_arg2 m ρ c)
theorem at3_arg2 (c : Dev nD) : W3 m ρ c (Proc.devRef .tc main_arg2) = (m ((c : Thread nD τ).loc main_arg2)) :=
  (show StableHlo.after hostOps1 (W2 m ρ c) (Proc.devRef .tc main_arg2) = W2 m ρ c (Proc.devRef .tc main_arg2) by after_results <;> rfl).trans (at2_arg2 m ρ c)
theorem at4_arg2 (c : Dev nD) : W4 m ρ c (Proc.devRef .tc main_arg2) = (m ((c : Thread nD τ).loc main_arg2)) :=
  (W4_of_ne m ρ c main_arg2 (by decide)).trans (at3_arg2 m ρ c)

theorem at1_arg6 (c : Dev nD) : W1 m ρ c (Proc.devRef .tc main_arg6) = (m ((c : Thread nD τ).loc main_arg6)) := by
  show StableHlo.after hostOps0 (W0 m ρ c) (Proc.devRef .tc main_arg6) = _
  after_results <;> rfl
theorem at2_arg6 (c : Dev nD) : W2 m ρ c (Proc.devRef .tc main_arg6) = (m ((c : Thread nD τ).loc main_arg6)) :=
  (W2_of_ne m ρ c main_arg6 (by decide)).trans (at1_arg6 m ρ c)
theorem at3_arg6 (c : Dev nD) : W3 m ρ c (Proc.devRef .tc main_arg6) = (m ((c : Thread nD τ).loc main_arg6)) :=
  (show StableHlo.after hostOps1 (W2 m ρ c) (Proc.devRef .tc main_arg6) = W2 m ρ c (Proc.devRef .tc main_arg6) by after_results <;> rfl).trans (at2_arg6 m ρ c)
theorem at4_arg6 (c : Dev nD) : W4 m ρ c (Proc.devRef .tc main_arg6) = (m ((c : Thread nD τ).loc main_arg6)) :=
  (W4_of_ne m ρ c main_arg6 (by decide)).trans (at3_arg6 m ρ c)

theorem at1_arg5 (c : Dev nD) : W1 m ρ c (Proc.devRef .tc main_arg5) = (m ((c : Thread nD τ).loc main_arg5)) := by
  show StableHlo.after hostOps0 (W0 m ρ c) (Proc.devRef .tc main_arg5) = _
  after_results <;> rfl
theorem at2_arg5 (c : Dev nD) : W2 m ρ c (Proc.devRef .tc main_arg5) = (m ((c : Thread nD τ).loc main_arg5)) :=
  (W2_of_ne m ρ c main_arg5 (by decide)).trans (at1_arg5 m ρ c)
theorem at3_arg5 (c : Dev nD) : W3 m ρ c (Proc.devRef .tc main_arg5) = (m ((c : Thread nD τ).loc main_arg5)) :=
  (show StableHlo.after hostOps1 (W2 m ρ c) (Proc.devRef .tc main_arg5) = W2 m ρ c (Proc.devRef .tc main_arg5) by after_results <;> rfl).trans (at2_arg5 m ρ c)

theorem at1_arg4 (c : Dev nD) : W1 m ρ c (Proc.devRef .tc main_arg4) = (m ((c : Thread nD τ).loc main_arg4)) := by
  show StableHlo.after hostOps0 (W0 m ρ c) (Proc.devRef .tc main_arg4) = _
  after_results <;> rfl
theorem at2_arg4 (c : Dev nD) : W2 m ρ c (Proc.devRef .tc main_arg4) = (m ((c : Thread nD τ).loc main_arg4)) :=
  (W2_of_ne m ρ c main_arg4 (by decide)).trans (at1_arg4 m ρ c)

theorem at1_arg0 (c : Dev nD) : W1 m ρ c (Proc.devRef .tc main_arg0) = (m ((c : Thread nD τ).loc main_arg0)) := by
  show StableHlo.after hostOps0 (W0 m ρ c) (Proc.devRef .tc main_arg0) = _
  after_results <;> rfl

theorem at1_arg3 (c : Dev nD) : W1 m ρ c (Proc.devRef .tc main_arg3) = (m ((c : Thread nD τ).loc main_arg3)) := by
  show StableHlo.after hostOps0 (W0 m ρ c) (Proc.devRef .tc main_arg3) = _
  after_results <;> rfl

/-! ## The buffers the segments write -/

/-- After the first kernel its output array is the product of the features and the first weights. -/
theorem at2_v4 (c : Dev nD) : W2 m ρ c (Proc.devRef .tc main_v4) = product1 (m ((c : Thread nD τ).loc main_arg0)) (m ((c : Thread nD τ).loc main_arg3)) := by
  refine (W2_arr m ρ c 2).trans ((array1 (V1 m ρ) c).trans ?_)
  show product1 (W1 m ρ c (Proc.devRef .tc main_arg0)) (W1 m ρ c (Proc.devRef .tc main_arg3)) = _
  rw [at1_arg0, at1_arg3]

/-- Entering the second kernel, the aggregated hidden features are one round of message passing on that product. -/
theorem at3_v17 (c : Dev nD) : W3 m ρ c (Proc.devRef .tc main_v17)
    = aggregate128 (product1 (m ((c : Thread nD τ).loc main_arg0)) (m ((c : Thread nD τ).loc main_arg3))) (sourceRow (m ((c : Thread nD τ).loc main_arg1))) (targetRow (m ((c : Thread nD τ).loc main_arg1))) (m ((c : Thread nD τ).loc main_arg2)) := by
  have h : W3 m ρ c (Proc.devRef .tc main_v17)
      = aggregate128 (W2 m ρ c (Proc.devRef .tc main_v4)) (W2 m ρ c (Proc.devRef .tc main_v1)) (W2 m ρ c (Proc.devRef .tc main_v3)) (W2 m ρ c (Proc.devRef .tc main_arg2)) := by
    show StableHlo.after hostOps1 (W2 m ρ c) (Proc.devRef .tc main_v17) = _
    after_results <;> rfl
  rw [h, at2_v4, at2_v1, at2_v3, at2_arg2]

/-- and the hidden bias is laid out as a one-row array. -/
theorem at3_v18 (c : Dev nD) : W3 m ρ c (Proc.devRef .tc main_v18) = shapeCast S1x128 (m ((c : Thread nD τ).loc main_arg4)) shapeCasts_S128_S1x128 := by
  have h : W3 m ρ c (Proc.devRef .tc main_v18) = shapeCast S1x128 (W2 m ρ c (Proc.devRef .tc main_arg4)) shapeCasts_S128_S1x128 := by
    show StableHlo.after hostOps1 (W2 m ρ c) (Proc.devRef .tc main_v18) = _
    after_results <;> rfl
  rw [h, at2_arg4]

/-- After the second kernel its output array is bias, clamp and product of the aggregated hidden features. -/
theorem at4_v19 (c : Dev nD) : W4 m ρ c (Proc.devRef .tc main_v19)
    = product2 (aggregate128 (product1 (m ((c : Thread nD τ).loc main_arg0)) (m ((c : Thread nD τ).loc main_arg3))) (sourceRow (m ((c : Thread nD τ).loc main_arg1))) (targetRow (m ((c : Thread nD τ).loc main_arg1))) (m ((c : Thread nD τ).loc main_arg2)))
        (shapeCast S1x128 (m ((c : Thread nD τ).loc main_arg4)) shapeCasts_S128_S1x128) (m ((c : Thread nD τ).loc main_arg5)) := by
  refine (W4_arr m ρ c 3).trans ((array2 (V3 m ρ) c).trans ?_)
  show product2 (W3 m ρ c (Proc.devRef .tc main_v17)) (W3 m ρ c (Proc.devRef .tc main_v18)) (W3 m ρ c (Proc.devRef .tc main_arg5)) = _
  rw [at3_v17, at3_v18, at3_arg5]

set_option maxHeartbeats 1000000 in
/-- The result array at the end of @main is the forward pass of the launch memory's arguments. -/
theorem result_eq (c : Dev nD) : W5 m ρ c (Proc.devRef .tc main_v35)
    = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : W5 m ρ c (Proc.devRef .tc main_v35)
      = addf (F := Ideal) (aggregate64 (W4 m ρ c (Proc.devRef .tc main_v19)) (W4 m ρ c (Proc.devRef .tc main_v1)) (W4 m ρ c (Proc.devRef .tc main_v3)) (W4 m ρ c (Proc.devRef .tc main_arg2)))
          (broadcastInDim S50000x64 ![0, 1] bcast_S1x64_S50000x64_0_1 (shapeCast S1x64 (W4 m ρ c (Proc.devRef .tc main_arg6)) shapeCasts_S64_S1x64)) := by
    show StableHlo.after hostOps2 (W4 m ρ c) (Proc.devRef .tc main_v35) = _
    after_results_simp <;> rfl
  rw [h, at4_v19, at4_v1, at4_v3, at4_arg2, at4_arg6]
  rfl

end Cert.KernelIdeal.Layers

end
-- ==== Proof.HostProducts.lean ====
/-
  The reference's two matrix products and its bias rows, in the kernel's terms.

  Over the extended reals the host's `dot_general` of a 50000 × 256 array by a 256 × 128 array is, entry by entry,
  the sum over the 256 contracted positions — the same function the first kernel's 25 row blocks assemble. The
  second product is taken of max(A + bias row, 0); entry by entry that is the sum the second kernel's row blocks
  assemble. And laying a length-n vector out as a 1 × n row is the same array whether it is written as a reshape
  (the kernel's host code) or as a broadcast along a new leading axis (the reference).
-/
import proofs.«166498_j43628277793359_1_alg».proof.Proof.Region1
import proofs.«166498_j43628277793359_1_alg».proof.Proof.Region2
import proofs.«166498_j43628277793359_1_alg».proof.Proof.Gen.ReferenceIdeal.Read
import Idealize.ShloMosaic.Lib.ValueLayout

set_option maxRecDepth 16384

noncomputable section

namespace Cert.Bridge

open Idealize.ShloMosaic Idealize.ShloMosaic.ValueIdx
open Cert.ReferenceIdeal.Gen Cert.KernelIdeal.Gen
open Cert.KernelIdeal.Blocks

/-- The host's first product is the full product, entry by entry. -/
theorem product1_eq_host (X : Cert.KernelIdeal.S50000x256.Idx → Elt Ideal .f32) (W : Cert.KernelIdeal.S256x128.Idx → Elt Ideal .f32) :
    product1 X W = Host.dotGeneral (F := Ideal) (φ₁ := .f32) (φ₂ := .f32) Cert.ReferenceIdeal.dot_S50000x256_S256x128_S50000x128_1_0_0_1_n_n none X W := by
  funext i
  symm
  show Cert.ReferenceIdeal.Read.val_main_v4 (F := Ideal) X W i = _
  rw [Cert.ReferenceIdeal.Read.val_main_v4_apply]
  unfold product1
  refine Finset.sum_congr rfl fun k _ => ?_
  have hl : Cert.ReferenceIdeal.Read.lidx_main_v4 i k = ix2 (n0 := 50000) (n1 := 256) (i 0) k :=
    funext fun a => Fin.ext (by match a with | ⟨0, _⟩ => rfl | ⟨1, _⟩ => rfl)
  have hr : Cert.ReferenceIdeal.Read.ridx_main_v4 i k = ix2 (n0 := 256) (n1 := 128) k (i 1) :=
    funext fun a => Fin.ext (by match a with | ⟨0, _⟩ => rfl | ⟨1, _⟩ => rfl)
  rw [hl, hr]

/-- The hidden activation the host feeds its second product, at row `r`, column `k`: bias added, clamped at zero. -/
theorem hidden_host_apply (A : Cert.KernelIdeal.S50000x128.Idx → Elt Ideal .f32) (b : Cert.KernelIdeal.S1x128.Idx → Elt Ideal .f32)
    (r : Fin 50000) (k : Fin 128) :
    maximumf (F := Ideal)
        (addf A (broadcastInDim Cert.ReferenceIdeal.S50000x128 ![0, 1] Cert.ReferenceIdeal.Facts₀.bcast_S1x128_S50000x128_0_1 b))
        (broadcastInDim Cert.ReferenceIdeal.S50000x128 ![] Cert.ReferenceIdeal.Facts₀.bcast_S_S50000x128
          (constant Cert.ReferenceIdeal.S_ .f32 0x00000000#32))
        (ix2 (n0 := 50000) (n1 := 128) r k)
      = max (A (ix2 (n0 := 50000) (n1 := 128) r k) + b (bpos k)) (Ideal.ofBits .f32 0x00000000#32) := by
  show max (A (ix2 (n0 := 50000) (n1 := 128) r k)
        + broadcastInDim Cert.ReferenceIdeal.S50000x128 ![0, 1] Cert.ReferenceIdeal.Facts₀.bcast_S1x128_S50000x128_0_1 b (ix2 (n0 := 50000) (n1 := 128) r k))
      (broadcastInDim Cert.ReferenceIdeal.S50000x128 ![] Cert.ReferenceIdeal.Facts₀.bcast_S_S50000x128
        (constant (F := Ideal) Cert.ReferenceIdeal.S_ .f32 0x00000000#32) (ix2 (n0 := 50000) (n1 := 128) r k)) = _
  rw [broadcastInDim_apply ![0, 1] Cert.ReferenceIdeal.Facts₀.bcast_S1x128_S50000x128_0_1 b (ix2 (n0 := 50000) (n1 := 128) r k) (bpos k)
      (fun a => by
        match a with
        | ⟨0, _⟩ => rfl
        | ⟨1, _⟩ => rfl),
    broadcastInDim_apply ![] Cert.ReferenceIdeal.Facts₀.bcast_S_S50000x128 (constant (F := Ideal) Cert.ReferenceIdeal.S_ .f32 0x00000000#32)
      (ix2 (n0 := 50000) (n1 := 128) r k) ix0 (fun a => a.elim0)]
  rfl

/-- The host's second product, taken of the biased and clamped hidden features, is `product2`, entry by entry. -/
theorem product2_eq_host (A : Cert.KernelIdeal.S50000x128.Idx → Elt Ideal .f32) (b : Cert.KernelIdeal.S1x128.Idx → Elt Ideal .f32)
    (W : Cert.KernelIdeal.S128x64.Idx → Elt Ideal .f32) :
    product2 A b W = Host.dotGeneral (F := Ideal) (φ₁ := .f32) (φ₂ := .f32) Cert.ReferenceIdeal.dot_S50000x128_S128x64_S50000x64_1_0_0_1_n_n none
      (maximumf (F := Ideal)
        (addf A (broadcastInDim Cert.ReferenceIdeal.S50000x128 ![0, 1] Cert.ReferenceIdeal.Facts₀.bcast_S1x128_S50000x128_0_1 b))
        (broadcastInDim Cert.ReferenceIdeal.S50000x128 ![] Cert.ReferenceIdeal.Facts₀.bcast_S_S50000x128
          (constant Cert.ReferenceIdeal.S_ .f32 0x00000000#32))) W := by
  funext i
  symm
  simp only [Host.dotGeneral]
  rw [Ideal.dotGeneral_apply, ← Equiv.sum_comp (ValueIdx.contrEquiv1 Cert.ReferenceIdeal.dot_S50000x128_S128x64_S50000x64_1_0_0_1_n_n 128 rfl rfl).symm]
  unfold product2
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = ix2 (n0 := 50000) (n1 := 128) (i 0) k :=
    funext fun a => Fin.ext (by
      match a with
      | ⟨0, _⟩ => exact Cert.ReferenceIdeal.Read.lhs_main_v22_0 _ _
      | ⟨1, _⟩ => exact (Cert.ReferenceIdeal.Read.lhs_main_v22_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = ix2 (n0 := 128) (n1 := 64) k (i 1) :=
    funext fun a => Fin.ext (by
      match a with
      | ⟨0, _⟩ => exact (Cert.ReferenceIdeal.Read.rhs_main_v22_0 _ _).trans hk
      | ⟨1, _⟩ => exact Cert.ReferenceIdeal.Read.rhs_main_v22_1 _ _)
  rw [el, er]
  exact congrArg (· * W (ix2 (n0 := 128) (n1 := 64) k (i 1))) (hidden_host_apply A b (i 0) k)

/-- A length-`n` vector as a 1 × n row: the reshape and the broadcast along a new leading axis are one array. -/
theorem row_of_vector {n : Nat} (v : (⟨1, ![n]⟩ : Shape).Idx → Elt Ideal .f32)
    (hc : (⟨1, ![n]⟩ : Shape).ShapeCasts ⟨2, ![1, n]⟩) (hb : (⟨1, ![n]⟩ : Shape).BroadcastsInDim ⟨2, ![1, n]⟩ ![1]) :
    shapeCast (⟨2, ![1, n]⟩ : Shape) v hc = broadcastInDim (⟨2, ![1, n]⟩ : Shape) ![1] hb v := by
  funext j
  obtain ⟨u, i, rfl⟩ : ∃ (u : Fin 1) (i : Fin n), j = ix2 u i := ⟨j 0, j 1, eq_ix2 j⟩
  rw [shapeCast_a_1a_apply v hc u i]
  symm
  refine broadcastInDim_apply ![1] hb v (ix2 u i) (ix1 i) fun a => ?_
  match a with
  | ⟨0, _⟩ =>
    show i.val = if n = 1 then 0 else i.val
    split
    · have := i.isLt; omega
    · rfl

end Cert.Bridge

end
-- ==== Proof.Equal.lean ====
/-
  The reference computes the same function of the arguments as the kernel.

  The reference's result, stage by stage, is: product with the first weights, one round of message passing, the
  hidden bias broadcast and added, clamp at zero, product with the second weights, a second round of message
  passing, the output bias broadcast and added. The kernel's result is `forward`. The two rounds of message passing
  are the same host operations on both sides; what differs is only how the two products are spelt (one whole
  `dot_general` against 25 row blocks) and how the bias vectors become rows (a broadcast against a reshape) — and
  those are equal over the extended reals. No law of arithmetic beyond that is used, so nothing here needs the
  inputs to be finite.
-/
import proofs.«166498_j43628277793359_1_alg».proof.Proof.KernelValue
import proofs.«166498_j43628277793359_1_alg».proof.Proof.HostProducts
import proofs.«166498_j43628277793359_1_alg».proof.Proof.Gen.ReferenceIdeal.Read

set_option maxRecDepth 16384

noncomputable section

namespace Cert.Bridge

open Idealize.ShloMosaic
open Cert.KernelIdeal.Blocks Cert.KernelIdeal.Layers

set_option maxHeartbeats 1000000 in
/-- The reference's last stage, as a function of the seven arguments, is the kernel's forward pass. -/
theorem host_eq_forward (x0 : Reals Cert.KernelIdeal.S50000x256) (x1 : Ints Cert.KernelIdeal.S2x800000)
    (x2 : Reals Cert.KernelIdeal.S800000) (x3 : Reals Cert.KernelIdeal.S256x128) (x4 : Reals Cert.KernelIdeal.S128)
    (x5 : Reals Cert.KernelIdeal.S128x64) (x6 : Reals Cert.KernelIdeal.S64) :
    Cert.ReferenceIdeal.Read.val_main_v38 (F := Ideal) x0 x1 x2 x3 x4 x5 x6 = forward x0 x1 x2 x3 x4 x5 x6 := by
  unfold forward
  rw [product1_eq_host,
    row_of_vector (n := 128) x4 Cert.KernelIdeal.Facts₀.shapeCasts_S128_S1x128 Cert.ReferenceIdeal.Facts₀.bcast_S128_S1x128_1,
    product2_eq_host,
    row_of_vector (n := 64) x6 Cert.KernelIdeal.Facts₀.shapeCasts_S64_S1x64 Cert.ReferenceIdeal.Facts₀.bcast_S64_S1x64_1]
  rfl

end Cert.Bridge

end
-- ==== Proof.lean ====
/-
  A two-layer graph convolution: the kernel against its jnp reference, over the extended reals.

  Both programs compute, for node features X, an edge list (source row, target row), edge weights w and parameters
  W1, b1, W2, b2:

      H  = X · W1                         A1 = Σ_{edges e → node} w_e · H[source e]
      Z  = max(A1 + b1, 0) · W2           A2 = Σ_{edges e → node} w_e · Z[source e]
      result = A2 + b2

  The reference takes each matrix product whole. The kernel takes each in 25 blocks of 2000 rows on the accelerator
  (the second one with the bias and the clamp fused in) and does the gather / scale / scatter-add between them with
  the same host operations as the reference. A change of float format is the identity over the extended reals and a
  product into a zero accumulator is the plain sum, so every row block is the matching rows of the whole product;
  the blocks tile the rows; and the remaining host operations are literally the same on both sides. Each product's
  sum is first renamed onto the plain index set 0 … K−1 (a bijection of the index set: this uses only that addition of
  extended reals is commutative and associative, which holds with infinities too), and then the two sides are equal
  term by term. No distributivity and no cancelling is used, so the precondition that the inputs are finite is never
  opened.

  The three frame claims come from the generated frame proofs (for the reference, its generated run with the result
  dropped); the idealization rewrote nothing, so `preserves` is trivial; `algebraic` puts the kernel's run, with its
  result named, beside the reference's run.
-/
import proofs.«166498_j43628277793359_1_alg».proof.Defs
import proofs.«166498_j43628277793359_1_alg».proof.Proof.Gen.Kernel
import proofs.«166498_j43628277793359_1_alg».proof.Proof.Gen.Kernel.Skeleton
import proofs.«166498_j43628277793359_1_alg».proof.Proof.Gen.Kernel.Launch
import proofs.«166498_j43628277793359_1_alg».proof.Proof.Gen.Kernel.Points
import proofs.«166498_j43628277793359_1_alg».proof.Proof.Gen.Kernel.Frame
import proofs.«166498_j43628277793359_1_alg».proof.Proof.Gen.KernelIdeal
import proofs.«166498_j43628277793359_1_alg».proof.Proof.Gen.KernelIdeal.Skeleton
import proofs.«166498_j43628277793359_1_alg».proof.Proof.Gen.KernelIdeal.Launch
import proofs.«166498_j43628277793359_1_alg».proof.Proof.Gen.KernelIdeal.Points
import proofs.«166498_j43628277793359_1_alg».proof.Proof.Gen.KernelIdeal.Frame
import proofs.«166498_j43628277793359_1_alg».proof.Proof.Gen.ReferenceIdeal
import proofs.«166498_j43628277793359_1_alg».proof.Proof.Gen.Pre_finite_inputs
import proofs.«166498_j43628277793359_1_alg».proof.Proof.Gen.ReferenceIdeal.Run
import proofs.«166498_j43628277793359_1_alg».proof.Proof.Gen.ReferenceIdeal.Read
import proofs.«166498_j43628277793359_1_alg».proof.Proof.KernelRun
import proofs.«166498_j43628277793359_1_alg».proof.Proof.KernelValue
import proofs.«166498_j43628277793359_1_alg».proof.Proof.Equal
import Idealize.ShloMosaic.Adequacy
import Idealize.ShloMosaic.Init

set_option maxRecDepth 16384

noncomputable section

namespace Cert.Proof

open Idealize.ShloMosaic Idealize.ShloMosaic.TcCoe Idealize.SL.Sem

/-! ## The kernel's run with its result named -/

section KernelSide

open Cert.KernelIdeal Cert.KernelIdeal.Gen Cert.KernelIdeal.Layers

/-- Every weakly fair execution of the idealized kernel terminates with its result array at the forward pass of
    the launch memory's arguments, and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
        = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v35 (by decide))).trans (result_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (Cert.KernelIdeal.WholeRun.run_all m ρ)

end KernelSide

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- From memories that agree on the arguments both programs run, and both end with the forward pass of those
    arguments in their result array. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v38_eq _ _ _ _ _ _ _).trans (Cert.Bridge.host_eq_forward _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
